-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x224x224 : Shape := ⟨4, ![2, 3, 224, 224]⟩
abbrev S_ : Shape := ⟨0, ![]⟩

class Facts : Prop where
  bcast_S_S2x3x224x224 : S_.BroadcastsInDim S2x3x224x224 (![] : Fin 0 → Fin S2x3x224x224.rank)
  reducesTo_S2x3x224x224_S_d0_1_2_3 : S2x3x224x224.ReducesTo [0, 1, 2, 3] S_
  h_S_ : 0 < S_.numel

variable [Facts]

def fn {F : FTy → Type} [FloatOps F] (main_arg0 : FVec F S2x3x224x224 .f32) : IVec S_ 1 :=
  let main_v0 : FVec F S2x3x224x224 .f32 := Host.absf main_arg0
  let main_cst : FVec F S_ .f32 := constant S_ .f32 0x7F800000#32
  let main_v1 : FVec F S2x3x224x224 .f32 := broadcastInDim S2x3x224x224 ![] bcast_S_S2x3x224x224 main_cst
  let main_v2 : IVec S2x3x224x224 1 := cmpf .olt main_v0 main_v1
  let main_c : IVec S_ 1 := constantI S_ 1 1#1
  let main_v3 : IVec S_ 1 := (fun x v => Host.reduce IntOp.andi x v reducesTo_S2x3x224x224_S_d0_1_2_3 h_S_) main_v2 main_c
  main_v3
-- ==== Kernel.lean ====
abbrev S2x3x224x224 : Shape := ⟨4, ![2, 3, 224, 224]⟩
abbrev S14 : Shape := ⟨1, ![14]⟩
abbrev S_ : Shape := ⟨0, ![]⟩
abbrev S14x1 : Shape := ⟨2, ![14, 1]⟩
abbrev S16 : Shape := ⟨1, ![16]⟩
abbrev S1x16 : Shape := ⟨2, ![1, 16]⟩
abbrev S14x16 : Shape := ⟨2, ![14, 16]⟩
abbrev S224 : Shape := ⟨1, ![224]⟩
abbrev S224x1 : Shape := ⟨2, ![224, 1]⟩
abbrev S1x224 : Shape := ⟨2, ![1, 224]⟩
abbrev S224x224 : Shape := ⟨2, ![224, 224]⟩
abbrev S2x196x3x224x224 : Shape := ⟨5, ![2, 196, 3, 224, 224]⟩
abbrev S1x1x224x224 : Shape := ⟨4, ![1, 1, 224, 224]⟩
abbrev S1x49x1x224x224 : Shape := ⟨5, ![1, 49, 1, 224, 224]⟩
abbrev S1x224x224 : Shape := ⟨3, ![1, 224, 224]⟩
abbrev S49x224x224 : Shape := ⟨3, ![49, 224, 224]⟩

abbrev nBuf : Space → Nat
  | .hbm => 59
  | .vmem => 5
  | .smem => 0
  | _ => 0

abbrev bufTy : (tb : Table) → Fin (tcTables nBuf tb) → BufTy
  | .hbm, ⟨0, _⟩ => ⟨S2x3x224x224, .f32⟩
  | .hbm, ⟨1, _⟩ => ⟨S14, .i32⟩
  | .hbm, ⟨2, _⟩ => ⟨S_, .i32⟩
  | .hbm, ⟨3, _⟩ => ⟨S14, .i32⟩
  | .hbm, ⟨4, _⟩ => ⟨S14, .i32⟩
  | .hbm, ⟨5, _⟩ => ⟨S14x1, .i32⟩
  | .hbm, ⟨6, _⟩ => ⟨S16, .i32⟩
  | .hbm, ⟨7, _⟩ => ⟨S1x16, .i32⟩
  | .hbm, ⟨8, _⟩ => ⟨S14x16, .i32⟩
  | .hbm, ⟨9, _⟩ => ⟨S14x16, .i32⟩
  | .hbm, ⟨10, _⟩ => ⟨S14x16, .i32⟩
  | .hbm, ⟨11, _⟩ => ⟨S_, .f32⟩
  | .hbm, ⟨12, _⟩ => ⟨S224, .f32⟩
  | .hbm, ⟨13, _⟩ => ⟨S224, .i32⟩
  | .hbm, ⟨14, _⟩ => ⟨S_, .i32⟩
  | .hbm, ⟨15, _⟩ => ⟨S224, .i32⟩
  | .hbm, ⟨16, _⟩ => ⟨S224, .i1⟩
  | .hbm, ⟨17, _⟩ => ⟨S_, .i32⟩
  | .hbm, ⟨18, _⟩ => ⟨S224, .i32⟩
  | .hbm, ⟨19, _⟩ => ⟨S224, .i32⟩
  | .hbm, ⟨20, _⟩ => ⟨S224, .i32⟩
  | .hbm, ⟨21, _⟩ => ⟨S224x1, .i32⟩
  | .hbm, ⟨22, _⟩ => ⟨S_, .f32⟩
  | .hbm, ⟨23, _⟩ => ⟨S224, .f32⟩
  | .hbm, ⟨24, _⟩ => ⟨S224, .f32⟩
  | .hbm, ⟨25, _⟩ => ⟨S14, .i32⟩
  | .hbm, ⟨26, _⟩ => ⟨S_, .i32⟩
  | .hbm, ⟨27, _⟩ => ⟨S14, .i32⟩
  | .hbm, ⟨28, _⟩ => ⟨S14, .i32⟩
  | .hbm, ⟨29, _⟩ => ⟨S14x1, .i32⟩
  | .hbm, ⟨30, _⟩ => ⟨S16, .i32⟩
  | .hbm, ⟨31, _⟩ => ⟨S1x16, .i32⟩
  | .hbm, ⟨32, _⟩ => ⟨S14x16, .i32⟩
  | .hbm, ⟨33, _⟩ => ⟨S14x16, .i32⟩
  | .hbm, ⟨34, _⟩ => ⟨S14x16, .i32⟩
  | .hbm, ⟨35, _⟩ => ⟨S_, .f32⟩
  | .hbm, ⟨36, _⟩ => ⟨S224, .f32⟩
  | .hbm, ⟨37, _⟩ => ⟨S224, .i32⟩
  | .hbm, ⟨38, _⟩ => ⟨S_, .i32⟩
  | .hbm, ⟨39, _⟩ => ⟨S224, .i32⟩
  | .hbm, ⟨40, _⟩ => ⟨S224, .i1⟩
  | .hbm, ⟨41, _⟩ => ⟨S_, .i32⟩
  | .hbm, ⟨42, _⟩ => ⟨S224, .i32⟩
  | .hbm, ⟨43, _⟩ => ⟨S224, .i32⟩
  | .hbm, ⟨44, _⟩ => ⟨S224, .i32⟩
  | .hbm, ⟨45, _⟩ => ⟨S224x1, .i32⟩
  | .hbm, ⟨46, _⟩ => ⟨S_, .f32⟩
  | .hbm, ⟨47, _⟩ => ⟨S224, .f32⟩
  | .hbm, ⟨48, _⟩ => ⟨S224, .f32⟩
  | .hbm, ⟨49, _⟩ => ⟨S224x1, .f32⟩
  | .hbm, ⟨50, _⟩ => ⟨S1x224, .f32⟩
  | .hbm, ⟨51, _⟩ => ⟨S224x224, .f32⟩
  | .hbm, ⟨52, _⟩ => ⟨S224x224, .f32⟩
  | .hbm, ⟨53, _⟩ => ⟨S224x224, .f32⟩
  | .hbm, ⟨54, _⟩ => ⟨S_, .f32⟩
  | .hbm, ⟨55, _⟩ => ⟨S224x224, .f32⟩
  | .hbm, ⟨56, _⟩ => ⟨S224x224, .i1⟩
  | .hbm, ⟨57, _⟩ => ⟨S224x224, .f32⟩
  | .hbm, ⟨58, _⟩ => ⟨S2x196x3x224x224, .f32⟩
  | .local _ .vmem, ⟨0, _⟩ => ⟨S1x1x224x224, .f32⟩
  | .local _ .vmem, ⟨1, _⟩ => ⟨S1x1x224x224, .f32⟩
  | .local _ .vmem, ⟨2, _⟩ => ⟨S224x224, .f32⟩
  | .local _ .vmem, ⟨3, _⟩ => ⟨S1x49x1x224x224, .f32⟩
  | .local _ .vmem, ⟨4, _⟩ => ⟨S1x49x1x224x224, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 3, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S1x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x49x1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S14 : S_.BroadcastsInDim S14 (![] : Fin 0 → Fin S14.rank)
  bcast_S14_S14x1_0 : S14.BroadcastsInDim S14x1 (![0] : Fin 1 → Fin S14x1.rank)
  bcast_S16_S1x16_1 : S16.BroadcastsInDim S1x16 (![1] : Fin 1 → Fin S1x16.rank)
  bcast_S14x1_S14x16_0_1 : S14x1.BroadcastsInDim S14x16 (![0, 1] : Fin 2 → Fin S14x16.rank)
  bcast_S1x16_S14x16_0_1 : S1x16.BroadcastsInDim S14x16 (![0, 1] : Fin 2 → Fin S14x16.rank)
  bcast_S_S224 : S_.BroadcastsInDim S224 (![] : Fin 0 → Fin S224.rank)
  shapeCasts_S14x16_S224 : S14x16.ShapeCasts S224
  bcast_S224_S224x1_0 : S224.BroadcastsInDim S224x1 (![0] : Fin 1 → Fin S224x1.rank)
  bcast_S224_S1x224_1 : S224.BroadcastsInDim S1x224 (![1] : Fin 1 → Fin S1x224.rank)
  bcast_S224x1_S224x224_0_1 : S224x1.BroadcastsInDim S224x224 (![0, 1] : Fin 2 → Fin S224x224.rank)
  bcast_S1x224_S224x224_0_1 : S1x224.BroadcastsInDim S224x224 (![0, 1] : Fin 2 → Fin S224x224.rank)
  bcast_S_S224x224 : S_.BroadcastsInDim S224x224 (![] : Fin 0 → Fin S224x224.rank)
  inb_S1x1x224x224_S1x1x224x224_0_0_0_0 : ∀ a, (![0, 0, 0, 0] : Fin 4 → Nat) a + S1x1x224x224.size a ≤ S1x1x224x224.size a
  h_S1x1x224x224 : 0 < S1x1x224x224.numel
  shapeCasts_S1x1x224x224_S224x224 : S1x1x224x224.ShapeCasts S224x224
  inb_S224x224_S224x224_0_0 : ∀ a, (![0, 0] : Fin 2 → Nat) a + S224x224.size a ≤ S224x224.size a
  h_S224x224 : 0 < S224x224.numel
  shapeCasts_S224x224_S224x224 : S224x224.ShapeCasts S224x224
  shapeCasts_S224x224_S1x224x224 : S224x224.ShapeCasts S1x224x224
  shapeCasts_S1x224x224_S1x224x224 : S1x224x224.ShapeCasts S1x224x224
  broadcasts_S1x224x224_S49x224x224 : S1x224x224.Broadcasts S49x224x224
  inb_S1x49x1x224x224_S1x49x1x224x224_0_0_0_0_0 : ∀ a, (![0, 0, 0, 0, 0] : Fin 5 → Nat) a + S1x49x1x224x224.size a ≤ S1x49x1x224x224.size a
  h_S1x49x1x224x224 : 0 < S1x49x1x224x224.numel
  shapeCasts_S1x49x1x224x224_S49x224x224 : S1x49x1x224x224.ShapeCasts S49x224x224
  shapeCasts_S49x224x224_S1x49x1x224x224 : S49x224x224.ShapeCasts S1x49x1x224x224
  scatter_S224_S224x1_S224_n_0_0_1_wf : ScatterDims.WF S224 S224x1 S224 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x224x224.size a ≤ S2x3x224x224.size a
  hwx0_0 : ∀ i : grid0.Coords, EltTy.bits .f32 = 32 ∨ (Rect.block (s := S2x3x224x224) S1x1x224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S224x224.size a ≤ S224x224.size a
  hwx0_1 : ∀ i : grid0.Coords, EltTy.bits .f32 = 32 ∨ (Rect.block (s := S224x224) S224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x49x1x224x224.size a ≤ S2x196x3x224x224.size a
  hwx0_2 : ∀ i : grid0.Coords, EltTy.bits .f32 = 32 ∨ (Rect.block (s := S2x196x3x224x224) S1x49x1x224x224.size (cc0_transform_2 i) (hinb0_2 i)).WholeWords (EltTy.packing .f32)

variable [Facts₀]

def scatter_S224_S224x1_S224_n_0_0_1 : ScatterDims S224 S224x1 S224 where
  updateWindowDims := []
  insertedWindowDims := [0]
  scatterDimsToOperandDims := [0]
  indexVectorDim := 1
  wf := scatter_S224_S224x1_S224_n_0_0_1_wf

abbrev win0_0 : Pipeline.Window sig grid0 :=
  Pipeline.Window.ofSpec (Memref.whole main_arg0) S1x1x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S224x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x49x1x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x3x224x224 : Shape := ⟨4, ![2, 3, 224, 224]⟩
abbrev S14 : Shape := ⟨1, ![14]⟩
abbrev S_ : Shape := ⟨0, ![]⟩
abbrev S14x1 : Shape := ⟨2, ![14, 1]⟩
abbrev S16 : Shape := ⟨1, ![16]⟩
abbrev S1x16 : Shape := ⟨2, ![1, 16]⟩
abbrev S14x16 : Shape := ⟨2, ![14, 16]⟩
abbrev S224 : Shape := ⟨1, ![224]⟩
abbrev S224x1 : Shape := ⟨2, ![224, 1]⟩
abbrev S1x224 : Shape := ⟨2, ![1, 224]⟩
abbrev S224x224 : Shape := ⟨2, ![224, 224]⟩
abbrev S2x1x3x224x224 : Shape := ⟨5, ![2, 1, 3, 224, 224]⟩
abbrev S2x196x3x224x224 : Shape := ⟨5, ![2, 196, 3, 224, 224]⟩

abbrev nBuf : Space → Nat
  | .hbm => 63
  | .vmem => 0
  | .smem => 0
  | _ => 0

abbrev bufTy : (tb : Table) → Fin (tcTables nBuf tb) → BufTy
  | .hbm, ⟨0, _⟩ => ⟨S2x3x224x224, .f32⟩
  | .hbm, ⟨1, _⟩ => ⟨S14, .i32⟩
  | .hbm, ⟨2, _⟩ => ⟨S_, .i32⟩
  | .hbm, ⟨3, _⟩ => ⟨S14, .i32⟩
  | .hbm, ⟨4, _⟩ => ⟨S14, .i32⟩
  | .hbm, ⟨5, _⟩ => ⟨S14x1, .i32⟩
  | .hbm, ⟨6, _⟩ => ⟨S16, .i32⟩
  | .hbm, ⟨7, _⟩ => ⟨S1x16, .i32⟩
  | .hbm, ⟨8, _⟩ => ⟨S14x16, .i32⟩
  | .hbm, ⟨9, _⟩ => ⟨S14x16, .i32⟩
  | .hbm, ⟨10, _⟩ => ⟨S14x16, .i32⟩
  | .hbm, ⟨11, _⟩ => ⟨S_, .f32⟩
  | .hbm, ⟨12, _⟩ => ⟨S224, .f32⟩
  | .hbm, ⟨13, _⟩ => ⟨S224, .i32⟩
  | .hbm, ⟨14, _⟩ => ⟨S_, .i32⟩
  | .hbm, ⟨15, _⟩ => ⟨S224, .i32⟩
  | .hbm, ⟨16, _⟩ => ⟨S224, .i1⟩
  | .hbm, ⟨17, _⟩ => ⟨S_, .i32⟩
  | .hbm, ⟨18, _⟩ => ⟨S224, .i32⟩
  | .hbm, ⟨19, _⟩ => ⟨S224, .i32⟩
  | .hbm, ⟨20, _⟩ => ⟨S224, .i32⟩
  | .hbm, ⟨21, _⟩ => ⟨S224x1, .i32⟩
  | .hbm, ⟨22, _⟩ => ⟨S_, .f32⟩
  | .hbm, ⟨23, _⟩ => ⟨S224, .f32⟩
  | .hbm, ⟨24, _⟩ => ⟨S224, .f32⟩
  | .hbm, ⟨25, _⟩ => ⟨S224x1, .f32⟩
  | .hbm, ⟨26, _⟩ => ⟨S14, .i32⟩
  | .hbm, ⟨27, _⟩ => ⟨S_, .i32⟩
  | .hbm, ⟨28, _⟩ => ⟨S14, .i32⟩
  | .hbm, ⟨29, _⟩ => ⟨S14, .i32⟩
  | .hbm, ⟨30, _⟩ => ⟨S14x1, .i32⟩
  | .hbm, ⟨31, _⟩ => ⟨S16, .i32⟩
  | .hbm, ⟨32, _⟩ => ⟨S1x16, .i32⟩
  | .hbm, ⟨33, _⟩ => ⟨S14x16, .i32⟩
  | .hbm, ⟨34, _⟩ => ⟨S14x16, .i32⟩
  | .hbm, ⟨35, _⟩ => ⟨S14x16, .i32⟩
  | .hbm, ⟨36, _⟩ => ⟨S_, .f32⟩
  | .hbm, ⟨37, _⟩ => ⟨S224, .f32⟩
  | .hbm, ⟨38, _⟩ => ⟨S224, .i32⟩
  | .hbm, ⟨39, _⟩ => ⟨S_, .i32⟩
  | .hbm, ⟨40, _⟩ => ⟨S224, .i32⟩
  | .hbm, ⟨41, _⟩ => ⟨S224, .i1⟩
  | .hbm, ⟨42, _⟩ => ⟨S_, .i32⟩
  | .hbm, ⟨43, _⟩ => ⟨S224, .i32⟩
  | .hbm, ⟨44, _⟩ => ⟨S224, .i32⟩
  | .hbm, ⟨45, _⟩ => ⟨S224, .i32⟩
  | .hbm, ⟨46, _⟩ => ⟨S224x1, .i32⟩
  | .hbm, ⟨47, _⟩ => ⟨S_, .f32⟩
  | .hbm, ⟨48, _⟩ => ⟨S224, .f32⟩
  | .hbm, ⟨49, _⟩ => ⟨S224, .f32⟩
  | .hbm, ⟨50, _⟩ => ⟨S1x224, .f32⟩
  | .hbm, ⟨51, _⟩ => ⟨S224x224, .f32⟩
  | .hbm, ⟨52, _⟩ => ⟨S224x224, .f32⟩
  | .hbm, ⟨53, _⟩ => ⟨S224x224, .f32⟩
  | .hbm, ⟨54, _⟩ => ⟨S_, .f32⟩
  | .hbm, ⟨55, _⟩ => ⟨S224x224, .f32⟩
  | .hbm, ⟨56, _⟩ => ⟨S224x224, .i1⟩
  | .hbm, ⟨57, _⟩ => ⟨S2x1x3x224x224, .f32⟩
  | .hbm, ⟨58, _⟩ => ⟨S_, .f32⟩
  | .hbm, ⟨59, _⟩ => ⟨S2x1x3x224x224, .i1⟩
  | .hbm, ⟨60, _⟩ => ⟨S2x1x3x224x224, .f32⟩
  | .hbm, ⟨61, _⟩ => ⟨S2x1x3x224x224, .f32⟩
  | .hbm, ⟨62, _⟩ => ⟨S2x196x3x224x224, .f32⟩
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_c_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S14_S14x1_0 : S14.BroadcastsInDim S14x1 (![0] : Fin 1 → Fin S14x1.rank)
  bcast_S16_S1x16_1 : S16.BroadcastsInDim S1x16 (![1] : Fin 1 → Fin S1x16.rank)
  bcast_S14x1_S14x16_0_1 : S14x1.BroadcastsInDim S14x16 (![0, 1] : Fin 2 → Fin S14x16.rank)
  bcast_S1x16_S14x16_0_1 : S1x16.BroadcastsInDim S14x16 (![0, 1] : Fin 2 → Fin S14x16.rank)
  bcast_S_S224 : S_.BroadcastsInDim S224 (![] : Fin 0 → Fin S224.rank)
  shapeCasts_S14x16_S224 : S14x16.ShapeCasts S224
  bcast_S224_S224x1_0 : S224.BroadcastsInDim S224x1 (![0] : Fin 1 → Fin S224x1.rank)
  bcast_S224_S1x224_1 : S224.BroadcastsInDim S1x224 (![1] : Fin 1 → Fin S1x224.rank)
  bcast_S224x1_S224x224_0_1 : S224x1.BroadcastsInDim S224x224 (![0, 1] : Fin 2 → Fin S224x224.rank)
  bcast_S1x224_S224x224_0_1 : S1x224.BroadcastsInDim S224x224 (![0, 1] : Fin 2 → Fin S224x224.rank)
  bcast_S_S224x224 : S_.BroadcastsInDim S224x224 (![] : Fin 0 → Fin S224x224.rank)
  bcast_S2x3x224x224_S2x1x3x224x224_0_2_3_4 : S2x3x224x224.BroadcastsInDim S2x1x3x224x224 (![0, 2, 3, 4] : Fin 4 → Fin S2x1x3x224x224.rank)
  bcast_S224x224_S2x1x3x224x224_3_4 : S224x224.BroadcastsInDim S2x1x3x224x224 (![3, 4] : Fin 2 → Fin S2x1x3x224x224.rank)
  bcast_S_S2x1x3x224x224 : S_.BroadcastsInDim S2x1x3x224x224 (![] : Fin 0 → Fin S2x1x3x224x224.rank)
  bcast_S2x1x3x224x224_S2x196x3x224x224_0_1_2_3_4 : S2x1x3x224x224.BroadcastsInDim S2x196x3x224x224 (![0, 1, 2, 3, 4] : Fin 5 → Fin S2x196x3x224x224.rank)
  scatter_S224_S224x1_S224_n_0_0_1_wf : ScatterDims.WF S224 S224x1 S224 [] [0] [0] 1

variable [Facts₀]

def scatter_S224_S224x1_S224_n_0_0_1 : ScatterDims S224 S224x1 S224 where
  updateWindowDims := []
  insertedWindowDims := [0]
  scatterDimsToOperandDims := [0]
  indexVectorDim := 1
  wf := scatter_S224_S224x1_S224_n_0_0_1_wf

class Facts : Prop extends Facts₀ where

variable [Facts]
-- ==== Proof.MaskSpec.lean ====
/-
  The mathematics shared by the two programs of this certificate, with no program in sight.

  Both programs produce an array `out[n, p, c, h, w]` over `[2, 196, 3, 224, 224]` from an input `x[n, c, h, w]` over
  `[2, 3, 224, 224]` and a one-bit mask `M[h, w]` over `[224, 224]` (the mask says which pixels some sliding window
  covers; here it is only a given array of bits). The result does not depend on the window position `p`:

      out[n, p, c, h, w] = x[n, c, h, w]   if M[h, w] = 1,      0   otherwise.

  One program selects (`select M x 0`); the other multiplies `x` by the mask converted to a float, `x · float(M)`, where
  `float(1) = 1` and `float(0) = 0`. On the extended reals `x · 1 = x` and `x · 0 = 0` for EVERY `x`, the infinities
  included (`0 · ±∞ = 0` there), so the two agree with no finiteness assumption: `mul_flag`.
-/
import Idealize.ShloMosaic.PureOps.Ideal
import Idealize.ShloMosaic.PureOps.Ideal.Laws
import Idealize.ShloMosaic.Lib.ValueIdx

noncomputable section

namespace Cert.WindowMask

open Idealize.ShloMosaic Idealize.ShloMosaic.ValueIdx

/-- The input's shape `[N, C, H, W]`. -/
abbrev SX : Shape := ⟨4, ![2, 3, 224, 224]⟩
/-- The mask's shape `[H, W]`. -/
abbrev SM : Shape := ⟨2, ![224, 224]⟩
/-- The result's shape `[N, P, C, H, W]`, `P = 14 · 14` window positions. -/
abbrev SO : Shape := ⟨5, ![2, 196, 3, 224, 224]⟩

/-- The pixel `(h, w)` of a result index `(n, p, c, h, w)`. -/
abbrev pixel (i : SO.Idx) : SM.Idx := ix2 (n0 := 224) (n1 := 224) (i 3) (i 4)

/-- The input element `(n, c, h, w)` a result index `(n, p, c, h, w)` shows: the window position `p` is dropped. -/
abbrev source (i : SO.Idx) : SX.Idx := ix4 (n0 := 2) (n1 := 3) (n2 := 224) (n3 := 224) (i 0) (i 2) (i 3) (i 4)

/-- THE RESULT as one function of the input array and the mask: the input element where the pixel's bit is set, zero
    elsewhere, the same for every window position. -/
def masked (x : SX.Idx → EReal) (M : SM.Idx → BitVec 1) : SO.Idx → EReal :=
  fun i => Scalar.select (M (pixel i)) (x (source i)) 0

/-- Multiplying by a bit read as a number IS selecting on the bit, for every extended real: `x · 1 = x` and `x · 0 = 0`
    (also at `±∞`, where the extended reals' product with zero is zero). -/
theorem mul_flag (x : EReal) (b : BitVec 1) : x * (((b.toNat : ℝ)) : EReal) = Scalar.select b x 0 := by
  have hb : b = 0 ∨ b = 1 := by revert b; decide
  rcases hb with rfl | rfl
  · simp [Scalar.select]
  · simp [Scalar.select]

end Cert.WindowMask

end
-- ==== Proof.RefMasked.lean ====
/-
  The reference's result, index by index.

  The reference program builds the mask `M[h, w]` (a comparison of a product of two window-coverage counts with zero, a
  one-bit array that does not involve the input), lays the input `x[n, c, h, w]` out as `[n, 1, c, h, w]`, selects it
  against zero under the mask broadcast along `n`, `1`, `c`, and finally repeats the result along the window axis
  `p`. Read at an index `(n, p, c, h, w)` through the four layout operations this is `x[n, c, h, w]` where
  `M[h, w] = 1` and zero elsewhere: the function `masked x M`.
-/
import proofs.«107227_j77043123356180_1_alg».proof.Proof.RefRead
import proofs.«107227_j77043123356180_1_alg».proof.Proof.MaskSpec

noncomputable section

namespace Cert.ReferenceIdeal.RefValue

open Cert.ReferenceIdeal Cert.ReferenceIdeal.ReadP Idealize.ShloMosaic Idealize.ShloMosaic.ValueIdx Cert.WindowMask

/-- Through the repetition along `p` and the mask's broadcast, a result index reads the mask at its pixel `(h, w)`. -/
theorem mask_index (i : S2x196x3x224x224.Idx) : idx_main_call0_v0 (idx_main_v47 i) = pixel i :=
  funext fun a => Fin.ext (by match a with | ⟨0, _⟩ => rfl | ⟨1, _⟩ => rfl)

/-- Through the repetition along `p` and the input's re-layout, a result index reads the input at `(n, c, h, w)`. -/
theorem input_index (i : S2x196x3x224x224.Idx) : idx_main_v45 (idx_main_v47 i) = source i :=
  funext fun a => Fin.ext (by match a with | ⟨0, _⟩ => rfl | ⟨1, _⟩ => rfl | ⟨2, _⟩ => rfl | ⟨3, _⟩ => rfl)

/-- THE REFERENCE'S RESULT is `masked` of the input and the reference's mask stage. -/
theorem result_eq (x : (⟨S2x3x224x224, .f32⟩ : BufTy).Contents (Elt Ideal)) :
    val_main_v47 (F := Ideal) x = masked x (val_main_v44 (F := Ideal)) := by
  funext i
  rw [val_main_v47_apply, val_main_v46_apply, val_main_call0_v0_apply, val_main_v45_apply, val_main_call0_v1_apply,
    val_main_cst_9_apply, mask_index, input_index, Ideal.ofBits_def, Ideal.ofBits_zero_f32]
  rfl

end Cert.ReferenceIdeal.RefValue

end
-- ==== Proof.KernelMask.lean ====
/-
  The mask array the kernel's program hands to its region.

  Before the region the program computes, with host operations only and from constants only, a `[224, 224]` array of
  floats: for each axis the number of sliding windows (start `16 g`, `g < 14`, length 16) that cover a position — a
  scatter-add of ones at the positions `16 g + k`, `k < 16` — then the product `cover[h] · cover[w]`, its comparison
  with zero (a one-bit array), and that bit converted to a float. This module names the pieces of that computation, as
  the program spells them, and shows that the array the region finds in window 1 is the one-bit mask converted to a float.
  Nothing here evaluates the mask: it stays a term.
-/
import proofs.«107227_j77043123356180_1_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- The positions the windows cover along one axis, window by window: `16 g + k` at place `16 g + k` of a flat list
    of `14 · 16 = 224` integers. -/
def coveredPositions : (⟨S224, .i32⟩ : BufTy).Contents (Elt Ideal) :=
  shapeCast _ (addi (broadcastInDim S14x16 ![0, 1] bcast_S14x1_S14x16_0_1 (broadcastInDim S14x1 ![0] bcast_S14_S14x1_0 (muli (iotaInDim S14 32 0) (broadcastInDim S14 ![] bcast_S_S14 (constantI S_ 32 16#32))))) (broadcastInDim S14x16 ![0, 1] bcast_S1x16_S14x16_0_1 (broadcastInDim S1x16 ![1] bcast_S16_S1x16_1 (iotaInDim S16 32 0)))) shapeCasts_S14x16_S224

/-- The same positions with a negative one counted from the end (`p + 224` where `p < 0`), as an indexed update does. -/
def landingPositions : (⟨S224, .i32⟩ : BufTy).Contents (Elt Ideal) :=
  select (cmpi .slt coveredPositions (broadcastInDim S224 ![] bcast_S_S224 (constantI S_ 32 0#32))) (addi coveredPositions (broadcastInDim S224 ![] bcast_S_S224 (constantI S_ 32 224#32))) coveredPositions

/-- How many windows cover each of the 224 positions of one axis: ones added into zeros at the landing positions. -/
def coverage : (⟨S224, .f32⟩ : BufTy).Contents (Elt Ideal) :=
  Host.scatterAdd scatter_S224_S224x1_S224_n_0_0_1 (broadcastInDim S224 ![] bcast_S_S224 (constant (F := Ideal) S_ .f32 0x00000000#32)) (broadcastInDim S224x1 ![0] bcast_S224_S224x1_0 landingPositions) (broadcastInDim S224 ![] bcast_S_S224 (constant (F := Ideal) S_ .f32 0x3F800000#32))

/-- THE MASK: the bit "`cover[h] · cover[w] > 0`" at each pixel `(h, w)`. -/
def coveredMask : (⟨S224x224, .i1⟩ : BufTy).Contents (Elt Ideal) :=
  cmpf .ogt (mulf (broadcastInDim S224x224 ![0, 1] bcast_S224x1_S224x224_0_1 (broadcastInDim S224x1 ![0] bcast_S224_S224x1_0 coverage)) (broadcastInDim S224x224 ![0, 1] bcast_S1x224_S224x224_0_1 (broadcastInDim S1x224 ![1] bcast_S224_S1x224_1 coverage))) (broadcastInDim S224x224 ![] bcast_S_S224x224 (constant (F := Ideal) S_ .f32 0x00000000#32))

variable (m : (ℓ : Loc nD τ sig) → Buf (Elt Ideal) ℓ)

set_option maxRecDepth 8192 in
set_option maxHeartbeats 8000000 in
/-- The array window 1 of the region stages is the mask's bits converted to floats (the host operations before the
    region, composed). -/
theorem mask_array (c : Dev nD) :
    (V m c main_v45 : S224x224.Idx → EReal) = uitofp (F := Ideal) .f32 coveredMask := by
  dsimp only [Gen.V, Gen.hostOps0]
  after_results_simp <;> rfl

end Cert.KernelIdeal.Hand

end
-- ==== Proof.KernelValue.lean ====
/-
  The kernel's result array, as one function of the input.

  The region runs over a `2 × 3 × 4` grid `(n, c, q)`. At a point it stages the `[224, 224]` image `x[n, c]` (window 0),
  the whole `[224, 224]` mask array (window 1), and writes back the block `out[n, 49 q … 49 q + 48, c]` (window 2): 49
  copies of the staged image multiplied, pixel by pixel, by the staged mask array. The mask array holds each mask bit as
  a float (`mask_array`), and a product with a bit read as a number is a selection on the bit (`mul_flag`), so every
  block is the block of ONE function of the input, `masked x M`; the 24 blocks tile the result array (window position
  `p` lies in block `p / 49`), so the array ends holding that function.
-/
import proofs.«107227_j77043123356180_1_alg».proof.Proof.Gen.KernelIdeal.Value
import proofs.«107227_j77043123356180_1_alg».proof.Proof.KernelMask
import proofs.«107227_j77043123356180_1_alg».proof.Proof.MaskSpec
import Idealize.ShloMosaic.Lib.Pipeline.Value
import Idealize.ShloMosaic.Lib.ValueIdx

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.WindowMask

variable (m : (ℓ : Loc nD τ sig) → Buf (Elt Ideal) ℓ) (ρ : Dev nD → PrngReg)

theorem zero_off2 : (![0, 0] : Fin 2 → Nat) = fun _ => 0 := funext fun a => by fin_cases a <;> rfl
theorem zero_off4 : (![0, 0, 0, 0] : Fin 4 → Nat) = fun _ => 0 := funext fun a => by fin_cases a <;> rfl

/-- What the body leaves in the output block, element by element: the staged image times the staged mask array at the
    element's pixel, whatever the copy. -/
theorem body_apply (x0 : Vec Ideal S1x1x224x224 .f32) (x1 : Vec Ideal S224x224 .f32) (y : S1x49x1x224x224.Idx) :
    out0_2 x0 x1 y = x0 (ix2_0 y) * x1 (ix2_1 y) := by
  unfold out0_2
  rw [canon2_eq]
  simp only [View.ld_unit_zero (S := S1x1x224x224) zero_off4, View.ld_unit_zero (S := S224x224) zero_off2]
  rfl

/-- The printed index maps, decided over the 24 grid points: the image block follows the output block's `n` and `c`,
    the mask block is always the whole array, and the output block's index is `(n, q, c, 0, 0)` within its ranges. -/
theorem index_facts : ∀ t : Fin cfg0.N,
    win0_0.index t (0 : Fin 4) = win0_2.index t (0 : Fin 5)
    ∧ win0_0.index t (1 : Fin 4) = win0_2.index t (2 : Fin 5)
    ∧ win0_0.index t (2 : Fin 4) = 0 ∧ win0_0.index t (3 : Fin 4) = 0
    ∧ win0_1.index t (0 : Fin 2) = 0 ∧ win0_1.index t (1 : Fin 2) = 0
    ∧ win0_2.index t (3 : Fin 5) = 0 ∧ win0_2.index t (4 : Fin 5) = 0
    ∧ win0_2.index t (0 : Fin 5) ≤ 1 ∧ win0_2.index t (1 : Fin 5) ≤ 3 ∧ win0_2.index t (2 : Fin 5) ≤ 2 :=
  (by decide +kernel : ∀ t : Fin grid0.N, _)

/-- Every block index `(n, q, c, 0, 0)` is some grid point's. -/
theorem index_onto : ∀ (n : Fin 2) (q : Fin 4) (ch : Fin 3), ∃ t : Fin cfg0.N, win0_2.index t = ![n.val, q.val, ch.val, 0, 0] :=
  (by decide +kernel : ∀ (n : Fin 2) (q : Fin 4) (ch : Fin 3), ∃ t : Fin grid0.N, win0_2.index t = ![n.val, q.val, ch.val, 0, 0])

/-- WHAT POINT `t` WRITES BACK is block `t` of `masked x M`, `x` the input as launched and `M` the mask. -/
theorem flushed_eq (c : Dev nD) (t : Fin cfg0.N) :
    (dats m 0 c).flushed 2 t
      = ((cfg0.win 2).blk t).view.read (Elt Ideal) (masked (m ((c : Thread nD τ).loc main_arg0)) coveredMask) := by
  rw [flushed2]
  funext j
  refine (body_apply (iblk m c 0 t) (iblk m c 1 t) j).trans ?_
  show HMul.hMul (α := EReal) (β := EReal) (γ := EReal) ((V m c main_arg0 : S2x3x224x224.Idx → EReal) (((cfg0.win 0).blk t).view.emb (ix2_0 j))) ((V m c main_v45 : S224x224.Idx → EReal) (((cfg0.win 1).blk t).view.emb (ix2_1 j)))
    = masked (m ((c : Thread nD τ).loc main_arg0)) coveredMask (((cfg0.win 2).blk t).view.emb j)
  rw [mask_array m c, V_main_arg0 m c]
  obtain ⟨e0, e1, e2, e3, e4, e5, e6, e7, b0, b1, b2⟩ := index_facts t
  have hj0 : (j 0).val < 1 := (j 0).isLt
  have hj2 : (j 2).val < 1 := (j 2).isLt
  have hx : ((cfg0.win 0).blk t).view.emb (ix2_0 j) = source (((cfg0.win 2).blk t).view.emb j) := by
    funext a; apply Fin.ext
    match a with
    | ⟨0, _⟩ => show win0_0.index t (0 : Fin 4) * 1 + 1 * 0 = win0_2.index t (0 : Fin 5) * 1 + 1 * (j 0).val; omega
    | ⟨1, _⟩ => show win0_0.index t (1 : Fin 4) * 1 + 1 * 0 = win0_2.index t (2 : Fin 5) * 1 + 1 * (j 2).val; omega
    | ⟨2, _⟩ => show win0_0.index t (2 : Fin 4) * 224 + 1 * (j 3).val = win0_2.index t (3 : Fin 5) * 224 + 1 * (j 3).val; omega
    | ⟨3, _⟩ => show win0_0.index t (3 : Fin 4) * 224 + 1 * (j 4).val = win0_2.index t (4 : Fin 5) * 224 + 1 * (j 4).val; omega
  have hm : ((cfg0.win 1).blk t).view.emb (ix2_1 j) = pixel (((cfg0.win 2).blk t).view.emb j) := by
    funext a; apply Fin.ext
    match a with
    | ⟨0, _⟩ => show win0_1.index t (0 : Fin 2) * 224 + 1 * (j 3).val = win0_2.index t (3 : Fin 5) * 224 + 1 * (j 3).val; omega
    | ⟨1, _⟩ => show win0_1.index t (1 : Fin 2) * 224 + 1 * (j 4).val = win0_2.index t (4 : Fin 5) * 224 + 1 * (j 4).val; omega
  rw [hx, hm]
  exact mul_flag _ _

/-- An index of the result array is in point `t`'s block iff each coordinate is in the block's range on its axis. -/
theorem mem_block (t : Fin cfg0.N) (i : S2x196x3x224x224.Idx) :
    i ∈ ((cfg0.win 2).blk t).view.set ↔ ∀ a : Fin 5, win0_2.index t a * S1x49x1x224x224.size a ≤ (i a).val ∧ (i a).val < win0_2.index t a * S1x49x1x224x224.size a + S1x49x1x224x224.size a := by
  show i ∈ ((View.whole main_v46).slice (win0_2.rect t)).set ↔ _
  rw [View.set_slice_whole, Rect.mem_set_unit]
  exact Iff.rfl

/-- The blocks tile the result array: `(n, p, c, h, w)` lies in the block of the point with block index `(n, p / 49, c, 0, 0)`. -/
theorem covered (i : S2x196x3x224x224.Idx) :
    ∃ t : Fin cfg0.N, (cfg0.win 2).flush t = true ∧ i ∈ ((cfg0.win 2).blk t).view.set := by
  have hi0 : (i 0).val < 2 := (i 0).isLt
  have hi1 : (i 1).val < 196 := (i 1).isLt
  have hi2 : (i 2).val < 3 := (i 2).isLt
  have hi3 : (i 3).val < 224 := (i 3).isLt
  have hi4 : (i 4).val < 224 := (i 4).isLt
  obtain ⟨t, ht⟩ := index_onto ⟨(i 0).val, by omega⟩ ⟨(i 1).val / 49, by omega⟩ ⟨(i 2).val, by omega⟩
  have q0 : win0_2.index t (0 : Fin 5) = (i 0).val := congrFun ht 0
  have q1 : win0_2.index t (1 : Fin 5) = (i 1).val / 49 := congrFun ht 1
  have q2 : win0_2.index t (2 : Fin 5) = (i 2).val := congrFun ht 2
  have q3 : win0_2.index t (3 : Fin 5) = 0 := congrFun ht 3
  have q4 : win0_2.index t (4 : Fin 5) = 0 := congrFun ht 4
  refine ⟨t, flush0_2 t, ?_⟩
  rw [mem_block]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 49 ≤ (i 1).val ∧ (i 1).val < win0_2.index t (1 : Fin 5) * 49 + 49; omega
  | ⟨2, _⟩ => show win0_2.index t (2 : Fin 5) * 1 ≤ (i 2).val ∧ (i 2).val < win0_2.index t (2 : Fin 5) * 1 + 1; omega
  | ⟨3, _⟩ => show win0_2.index t (3 : Fin 5) * 224 ≤ (i 3).val ∧ (i 3).val < win0_2.index t (3 : Fin 5) * 224 + 224; omega
  | ⟨4, _⟩ => show win0_2.index t (4 : Fin 5) * 224 ≤ (i 4).val ∧ (i 4).val < win0_2.index t (4 : Fin 5) * 224 + 224; omega

/-- THE RESULT ARRAY after the run is `masked x M` of the input as launched. -/
theorem final (c : Dev nD) :
    (dats m 0 c).arrAt 2 cfg0.N = masked (m ((c : Thread nD τ).loc main_arg0)) coveredMask :=
  (dats m 0 c).arrAt_eq_of_cover 2 _ (fun t _ => flushed_eq m c t) covered

/-- The kernel's run, read: the result array at `masked x M`, the input unchanged. -/
theorem run : θ_run defs (onTc (τ := τ) (main (F := Ideal))) ⟨m, fun _ => 0, ρ⟩ fun r => ∀ c : Dev nD,
      r.2.mem ((c : Thread nD τ).loc main_v46) = masked (m ((c : Thread nD τ).loc main_arg0)) coveredMask
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.lean ====
/-
  The certificate's claims.

  The kernel's program multiplies each image `x[n, c]` pixel by pixel by a `[224, 224]` array holding, as floats, the bits
  of a mask `M` (the pixels some sliding window covers: a comparison of a product of coverage counts with zero, computed
  by host operations from constants), and writes 49 copies of the product into each of the four blocks of window
  positions, for every `(n, c)`. The reference selects `x` against zero under the same mask and repeats the result along
  the 196 window positions. On the extended reals `x · 1 = x` and `x · 0 = 0` for every `x`, so both result arrays are

      out[n, p, c, h, w] = x[n, c, h, w]  where M[h, w] = 1,   0  elsewhere

  (`Cert.WindowMask.masked`), with the SAME mask term on both sides: the two programs spell the mask's computation
  operation for operation alike, and it is never evaluated. No finiteness of the input is used.

  The three frames: each kernel program's run is the generated frame; the reference's is its run with the result dropped.
  The idealization rewrote no operation, so there is nothing to preserve.
-/
import proofs.«107227_j77043123356180_1_alg».proof.Defs
import proofs.«107227_j77043123356180_1_alg».proof.Proof.Gen.Kernel
import proofs.«107227_j77043123356180_1_alg».proof.Proof.Gen.Kernel.Frame
import proofs.«107227_j77043123356180_1_alg».proof.Proof.Gen.KernelIdeal
import proofs.«107227_j77043123356180_1_alg».proof.Proof.Gen.KernelIdeal.Frame
import proofs.«107227_j77043123356180_1_alg».proof.Proof.Gen.KernelIdeal.Value
import proofs.«107227_j77043123356180_1_alg».proof.Proof.Gen.ReferenceIdeal
import proofs.«107227_j77043123356180_1_alg».proof.Proof.Gen.Pre_finite_inputs
import proofs.«107227_j77043123356180_1_alg».proof.Proof.RefRun
import proofs.«107227_j77043123356180_1_alg».proof.Proof.RefRead
import proofs.«107227_j77043123356180_1_alg».proof.Proof.MaskSpec
import proofs.«107227_j77043123356180_1_alg».proof.Proof.RefMasked
import proofs.«107227_j77043123356180_1_alg».proof.Proof.KernelMask
import proofs.«107227_j77043123356180_1_alg».proof.Proof.KernelValue
import Idealize.ShloMosaic.Adequacy
import Idealize.ShloMosaic.Init

noncomputable section

namespace Cert.Proof

open Idealize.ShloMosaic Idealize.ShloMosaic.TcCoe Idealize.SL.Sem

/-- The mask the kernel's program computes before its region and the mask the reference computes are one term: the same
    operations on the same constants, in the two programs' spellings. -/
theorem mask_eq : Cert.KernelIdeal.Hand.coveredMask = Cert.ReferenceIdeal.ReadP.val_main_v44 (F := Ideal) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the input, both programs end with the result array at `masked x M`: the kernel's by its
    blocks (`Cert.KernelIdeal.Hand.run`), the reference's by reading its operations at an index
    (`Cert.ReferenceIdeal.RefValue.result_eq`). -/
theorem algebraic : Cert.algebraic_KernelIdeal_ReferenceIdeal := by
  intro m ρ m' ρ' _ hagree
  refine ⟨fun c => Cert.WindowMask.masked (m ((c.tc : Thread Cert.KernelIdeal.nD Cert.KernelIdeal.τ).loc Cert.KernelIdeal.main_arg0))
    Cert.KernelIdeal.Hand.coveredMask, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, Cert.ReferenceIdeal.RefValue.result_eq, hagree c, mask_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
